-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x4096 : Shape := ⟨3, ![4096, 2, 4096]⟩
abbrev S16384x4096 : Shape := ⟨2, ![16384, 4096]⟩
abbrev S16384 : Shape := ⟨1, ![16384]⟩
abbrev S_ : Shape := ⟨0, ![]⟩

class Facts : Prop where
  bcast_S_S4096x2x4096 : S_.BroadcastsInDim S4096x2x4096 (![] : Fin 0 → Fin S4096x2x4096.rank)
  reducesTo_S4096x2x4096_S_d0_1_2 : S4096x2x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x2x4096 .f32) (main_arg1 : FVec F S16384x4096 .f32) (main_arg2 : FVec F S16384 .f32) : IVec S_ 1 :=
  let main_v0 : FVec F S4096x2x4096 .f32 := Host.absf main_arg0
  let main_cst : FVec F S_ .f32 := constant S_ .f32 0x7F800000#32
  let main_v1 : FVec F S4096x2x4096 .f32 := broadcastInDim S4096x2x4096 ![] bcast_S_S4096x2x4096 main_cst
  let main_v2 : IVec S4096x2x4096 1 := cmpf .olt main_v0 main_v1
  let main_c : IVec S_ 1 := constantI S_ 1 1#1
  let main_v3 : IVec S_ 1 := (fun x v => Host.reduce IntOp.andi x v reducesTo_S4096x2x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4096x2x4096 : Shape := ⟨3, ![4096, 2, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S512x4096 : Shape := ⟨2, ![512, 4096]⟩
abbrev S2048x4096 : Shape := ⟨2, ![2048, 4096]⟩
abbrev S1x2048 : Shape := ⟨2, ![1, 2048]⟩
abbrev S512x2048 : Shape := ⟨2, ![512, 2048]⟩
abbrev S4096x2x16384 : Shape := ⟨3, ![4096, 2, 16384]⟩

abbrev nBuf : Space → Nat
  | .hbm => 9
  | .vmem => 8
  | .smem => 0
  | _ => 0

abbrev bufTy : (tb : Table) → Fin (tcTables nBuf tb) → BufTy
  | .hbm, ⟨0, _⟩ => ⟨S4096x2x4096, .f32⟩
  | .hbm, ⟨1, _⟩ => ⟨S16384x4096, .f32⟩
  | .hbm, ⟨2, _⟩ => ⟨S16384, .f32⟩
  | .hbm, ⟨3, _⟩ => ⟨S8192x4096, .f32⟩
  | .hbm, ⟨4, _⟩ => ⟨S8192x4096, .bf16⟩
  | .hbm, ⟨5, _⟩ => ⟨S16384x4096, .bf16⟩
  | .hbm, ⟨6, _⟩ => ⟨S1x16384, .f32⟩
  | .hbm, ⟨7, _⟩ => ⟨S8192x16384, .f32⟩
  | .hbm, ⟨8, _⟩ => ⟨S4096x2x16384, .f32⟩
  | .local _ .vmem, ⟨0, _⟩ => ⟨S512x4096, .bf16⟩
  | .local _ .vmem, ⟨1, _⟩ => ⟨S512x4096, .bf16⟩
  | .local _ .vmem, ⟨2, _⟩ => ⟨S2048x4096, .bf16⟩
  | .local _ .vmem, ⟨3, _⟩ => ⟨S2048x4096, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S4096x2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096x2x4096_S8192x4096 : S4096x2x4096.ShapeCasts S8192x4096
  bitsLt_bf16_f32 : FTy.bits .bf16 < FTy.bits .f32
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S8192x16384_S4096x2x16384 : S8192x16384.ShapeCasts S4096x2x16384
  dot_S512x4096_S2048x4096_S512x2048_1_1_0_0_n_n_wf : DotDims.WF S512x4096 S2048x4096 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S16384x4096.size a
  hwx0_1 : ∀ i : grid0.Coords, EltTy.bits .bf16 = 32 ∨ (Rect.block (s := S16384x4096) S2048x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x16384.size a
  hwx0_3 : ∀ i : grid0.Coords, EltTy.bits .f32 = 32 ∨ (Rect.block (s := S8192x16384) S512x2048.size (cc0_transform_3 i) (hinb0_3 i)).WholeWords (EltTy.packing .f32)

variable [Facts₀]

def dot_S512x4096_S2048x4096_S512x2048_1_1_0_0_n_n : DotDims S512x4096 S2048x4096 S512x2048 where
  lhsContracting := [1]
  rhsContracting := [1]
  lhsNonContracting := [0]
  rhsNonContracting := [0]
  lhsBatch := []
  rhsBatch := []
  wf := dot_S512x4096_S2048x4096_S512x2048_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2x4096 : Shape := ⟨3, ![4096, 2, 4096]⟩
abbrev S16384x4096 : Shape := ⟨2, ![16384, 4096]⟩
abbrev S16384 : Shape := ⟨1, ![16384]⟩
abbrev S4096x2x16384 : Shape := ⟨3, ![4096, 2, 16384]⟩
abbrev S1x1x16384 : Shape := ⟨3, ![1, 1, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4096x2x4096, .f32⟩
  | .hbm, ⟨1, _⟩ => ⟨S16384x4096, .f32⟩
  | .hbm, ⟨2, _⟩ => ⟨S16384, .f32⟩
  | .hbm, ⟨3, _⟩ => ⟨S4096x2x16384, .f32⟩
  | .hbm, ⟨4, _⟩ => ⟨S1x1x16384, .f32⟩
  | .hbm, ⟨5, _⟩ => ⟨S4096x2x16384, .f32⟩
  | .hbm, ⟨6, _⟩ => ⟨S4096x2x16384, .f32⟩
  | _, _ => ⟨S4096x2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4096x2x16384_0_1_2 : S1x1x16384.BroadcastsInDim S4096x2x16384 (![0, 1, 2] : Fin 3 → Fin S4096x2x16384.rank)
  dot_S4096x2x4096_S16384x4096_S4096x2x16384_2_1_01_0_n_n_wf : DotDims.WF S4096x2x4096 S16384x4096 S4096x2x16384 [2] [1] [0, 1] [0] [] []

variable [Facts₀]

def dot_S4096x2x4096_S16384x4096_S4096x2x16384_2_1_01_0_n_n : DotDims S4096x2x4096 S16384x4096 S4096x2x16384 where
  lhsContracting := [2]
  rhsContracting := [1]
  lhsNonContracting := [0, 1]
  rhsNonContracting := [0]
  lhsBatch := []
  rhsBatch := []
  wf := dot_S4096x2x4096_S16384x4096_S4096x2x16384_2_1_01_0_n_n_wf

class Facts : Prop extends Facts₀ where

variable [Facts]
-- ==== Proof.Spec.lean ====
/-
  The function both programs compute, written once over literal shapes.

  The layer is affine: for a position `(s, t)` of the sequence-by-batch grid and an output feature `o`,
      out[s, t, o] = (∑ k, x[s, t, k] · w[o, k]) + b[o],
  a sum over the 4096 input features, on the extended reals. `linearAt` is that entry and `linear` the whole
  [4096, 2, 16384] array.

  The kernel works on the same data with the two leading axes merged: row `r = 2·s + t` of an [8192, 4096] matrix
  holds `x[s, t, ·]`, the bias is a [1, 16384] row, and the result is an [8192, 16384] matrix whose row `r` is
  `out[s, t, ·]`. `flatAt` / `flat` are the affine map in that arrangement, and `flatAt_eq_linearAt` says the two
  arrangements hold the same numbers: merging the leading axes renames the rows and changes no entry, so the
  two sums have equal terms, index by index. No property of the entries is used (nothing is cancelled or
  distributed), so the statement holds for infinite entries too.
-/
import Idealize.ShloMosaic.PureOps.Ideal
import Idealize.ShloMosaic.Lib.ValueIdx

noncomputable section

open scoped BigOperators

namespace Cert.Spec

open Idealize.ShloMosaic Idealize.ShloMosaic.ValueIdx

/-- Entry `(r, n)` of the affine map on merged rows: row `r` of `a` against row `n` of `w`, summed over the
    4096 shared columns, plus the bias row's entry `n`. -/
def flatAt (a : (⟨2, ![8192, 4096]⟩ : Shape).Idx → EReal) (w : (⟨2, ![16384, 4096]⟩ : Shape).Idx → EReal)
    (b : (⟨2, ![1, 16384]⟩ : Shape).Idx → EReal) (r : Fin 8192) (n : Fin 16384) : EReal :=
  (∑ k : Fin 4096, a (ix2 r k) * w (ix2 n k)) + b (ix2 (0 : Fin 1) n)

/-- The affine map on merged rows as a whole [8192, 16384] matrix. -/
def flat (a : (⟨2, ![8192, 4096]⟩ : Shape).Idx → EReal) (w : (⟨2, ![16384, 4096]⟩ : Shape).Idx → EReal)
    (b : (⟨2, ![1, 16384]⟩ : Shape).Idx → EReal) : (⟨2, ![8192, 16384]⟩ : Shape).Idx → EReal :=
  fun i => flatAt a w b (i 0) (i 1)

/-- Entry `(s, t, o)` of the layer: `x[s, t, ·]` against row `o` of `w`, plus `b[o]`. -/
def linearAt (x : (⟨3, ![4096, 2, 4096]⟩ : Shape).Idx → EReal) (w : (⟨2, ![16384, 4096]⟩ : Shape).Idx → EReal)
    (b : (⟨1, ![16384]⟩ : Shape).Idx → EReal) (s : Fin 4096) (t : Fin 2) (o : Fin 16384) : EReal :=
  (∑ k : Fin 4096, x (ix3 s t k) * w (ix2 o k)) + b (ix1 o)

/-- The layer's whole [4096, 2, 16384] result. -/
def linear (x : (⟨3, ![4096, 2, 4096]⟩ : Shape).Idx → EReal) (w : (⟨2, ![16384, 4096]⟩ : Shape).Idx → EReal)
    (b : (⟨1, ![16384]⟩ : Shape).Idx → EReal) : (⟨3, ![4096, 2, 16384]⟩ : Shape).Idx → EReal :=
  fun i => linearAt x w b (i 0) (i 1) (i 2)

/-- The two arrangements agree. If `a` holds `x[s, t, ·]` in its row `2·s + t`, `w'` is `w` entry by entry and the
    bias row `b'` holds `b`, then entry `(2·s + t, o)` of the merged-row map is entry `(s, t, o)` of the layer: the
    two sums run over the same `k` with equal terms. -/
theorem flatAt_eq_linearAt
    (x : (⟨3, ![4096, 2, 4096]⟩ : Shape).Idx → EReal) (w : (⟨2, ![16384, 4096]⟩ : Shape).Idx → EReal)
    (b : (⟨1, ![16384]⟩ : Shape).Idx → EReal)
    (a : (⟨2, ![8192, 4096]⟩ : Shape).Idx → EReal) (w' : (⟨2, ![16384, 4096]⟩ : Shape).Idx → EReal)
    (b' : (⟨2, ![1, 16384]⟩ : Shape).Idx → EReal)
    (ha : ∀ (s : Fin 4096) (t : Fin 2) (r : Fin 8192) (k : Fin 4096), r.val = 2 * s.val + t.val →
      a (ix2 r k) = x (ix3 s t k))
    (hw : ∀ (o : Fin 16384) (k : Fin 4096), w' (ix2 o k) = w (ix2 o k))
    (hb : ∀ o : Fin 16384, b' (ix2 (0 : Fin 1) o) = b (ix1 o))
    (s : Fin 4096) (t : Fin 2) (o : Fin 16384) (r : Fin 8192) (hr : r.val = 2 * s.val + t.val) :
    flatAt a w' b' r o = linearAt x w b s t o := by
  unfold flatAt linearAt
  rw [hb o]
  exact congrArg (· + b (ix1 o)) (Finset.sum_congr rfl fun k _ => by rw [ha s t r k hr, hw o k])

end Cert.Spec

end
-- ==== Proof.RefValue.lean ====
/-
  The reference's result, entry by entry, is the layer's affine map.

  The reference contracts the last axis of `x` with the last axis of `w`, spreads the bias over the two leading
  axes, and adds. Read at an index `(s, t, o)`: the contraction is the sum over `k` of `x[s, t, k] · w[o, k]`,
  the spread bias is `b[o]` whatever `s` and `t` are, and the addition is the extended reals' own. That is
  `Spec.linearAt` term for term.
-/
import proofs.«134720_j25958782337557_2_alg».proof.Proof.Gen.ReferenceIdeal.Read
import proofs.«134720_j25958782337557_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's last stage at `(s, t, o)` is `(∑ k, x[s, t, k] · w[o, k]) + b[o]`. -/
theorem ref_at (x : (⟨S4096x2x4096, .f32⟩ : BufTy).Contents (Elt Ideal)) (w : (⟨S16384x4096, .f32⟩ : BufTy).Contents (Elt Ideal))
    (b : (⟨S16384, .f32⟩ : BufTy).Contents (Elt Ideal)) (s : Fin 4096) (t : Fin 2) (o : Fin 16384) :
    val_main_v3 (F := Ideal) x w b (ix3 s t o) = Cert.Spec.linearAt x w b s t o := by
  -- the operands' indices the contraction and the two broadcasts read, by coordinates
  have el : ∀ k : Fin 4096, lidx_main_v0 (ix3 s t o) k = ix3 s t k := fun k => funext fun a => Fin.ext (by
    match a with
    | ⟨0, _⟩ => rfl
    | ⟨1, _⟩ => rfl
    | ⟨2, _⟩ => rfl)
  have er : ∀ k : Fin 4096, ridx_main_v0 (ix3 s t o) k = ix2 o k := fun k => funext fun a => Fin.ext (by
    match a with
    | ⟨0, _⟩ => rfl
    | ⟨1, _⟩ => rfl)
  have eb : idx_main_v1 (idx_main_v2 (ix3 s t o)) = ix1 o := funext fun a => Fin.ext (by
    match a with
    | ⟨0, _⟩ => rfl)
  rw [val_main_v3_apply, val_main_v0_apply, val_main_v2_apply, val_main_v1_apply]
  simp only [el, er, eb]
  rfl

/-- So the reference's whole result is the layer's. -/
theorem ref_eq (x : (⟨S4096x2x4096, .f32⟩ : BufTy).Contents (Elt Ideal)) (w : (⟨S16384x4096, .f32⟩ : BufTy).Contents (Elt Ideal))
    (b : (⟨S16384, .f32⟩ : BufTy).Contents (Elt Ideal)) :
    val_main_v3 (F := Ideal) x w b = Cert.Spec.linear x w b := by
  funext i
  obtain ⟨s, t, o, rfl⟩ : ∃ (s : Fin 4096) (t : Fin 2) (o : Fin 16384), i = ix3 s t o := ⟨i 0, i 1, i 2, eq_ix3 i⟩
  exact ref_at x w b s t o

end Cert.ReferenceIdeal.RefValue

end
-- ==== Proof.Body.lean ====
/-
  What one grid point computes, entry by entry.

  At a grid point the body holds a [512, 4096] block `x0` of merged rows, a [2048, 4096] block `x1` of weight rows
  and a [1, 2048] piece `x2` of the bias row. It multiplies `x0` by the transpose of `x1` into a zero accumulator,
  repeats the bias piece down the 512 rows, and adds. On the extended reals the accumulator contributes `0` and
  the product's entry `(p, q)` is the sum over the 4096 shared columns of `x0[p, k] · x1[q, k]`; the repeated bias
  reads `x2[0, q]` in every row. So the stored value at `(p, q)` is `(∑ k, x0[p, k] · x1[q, k]) + x2[0, q]`.

  The contraction index of the product is a one-coordinate index; the sum over it is re-indexed to a sum over
  `Fin 4096` through the bijection between the two, and each operand's index is named coordinate by coordinate.
-/
import proofs.«134720_j25958782337557_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-- The left operand's row coordinate at output `i` is `i`'s row. -/
theorem lhs_0 (i : S512x2048.Idx) (q : dot_S512x4096_S2048x4096_S512x2048_1_1_0_0_n_n.contr.Idx) :
    (dot_S512x4096_S2048x4096_S512x2048_1_1_0_0_n_n.lhsIdx i q 0).val = (i 0).val := by
  unfold DotDims.lhsIdx
  rw [dif_neg (show ¬(0 : Fin S512x4096.rank) ∈ dot_S512x4096_S2048x4096_S512x2048_1_1_0_0_n_n.lhsBatch by decide),
    dif_pos (show (0 : Fin S512x4096.rank) ∈ dot_S512x4096_S2048x4096_S512x2048_1_1_0_0_n_n.lhsNonContracting by decide)]
  rfl
/-- Its column coordinate is the contraction's. -/
theorem lhs_1 (i : S512x2048.Idx) (q : dot_S512x4096_S2048x4096_S512x2048_1_1_0_0_n_n.contr.Idx) :
    (dot_S512x4096_S2048x4096_S512x2048_1_1_0_0_n_n.lhsIdx i q 1).val = (q ⟨0, by decide⟩).val :=
  dot_S512x4096_S2048x4096_S512x2048_1_1_0_0_n_n.lhsIdx_val_of_single rfl i q
/-- The right operand's row coordinate at output `i` is `i`'s column. -/
theorem rhs_0 (i : S512x2048.Idx) (q : dot_S512x4096_S2048x4096_S512x2048_1_1_0_0_n_n.contr.Idx) :
    (dot_S512x4096_S2048x4096_S512x2048_1_1_0_0_n_n.rhsIdx i q 0).val = (i 1).val := by
  unfold DotDims.rhsIdx
  rw [dif_neg (show ¬(0 : Fin S2048x4096.rank) ∈ dot_S512x4096_S2048x4096_S512x2048_1_1_0_0_n_n.rhsBatch by decide),
    dif_pos (show (0 : Fin S2048x4096.rank) ∈ dot_S512x4096_S2048x4096_S512x2048_1_1_0_0_n_n.rhsNonContracting by decide)]
  rfl
/-- Its column coordinate is the contraction's. -/
theorem rhs_1 (i : S512x2048.Idx) (q : dot_S512x4096_S2048x4096_S512x2048_1_1_0_0_n_n.contr.Idx) :
    (dot_S512x4096_S2048x4096_S512x2048_1_1_0_0_n_n.rhsIdx i q 1).val = (q ⟨0, by decide⟩).val :=
  dot_S512x4096_S2048x4096_S512x2048_1_1_0_0_n_n.rhsIdx_val_of_single rfl i q

/-- The product into the zero accumulator at `(p, q)`: the sum over `k` of `x0[p, k] · x1[q, k]`. -/
theorem matmul_at (x0 : FVec Ideal S512x4096 .bf16) (x1 : FVec Ideal S2048x4096 .bf16) (p : Fin 512) (q : Fin 2048) :
    matmul (F := Ideal) dot_S512x4096_S2048x4096_S512x2048_1_1_0_0_n_n none x0 x1 (constant S512x2048 .f32 0x00000000#32) (ix2 p q)
      = ∑ k : Fin 4096, x0 (ix2 p k) * x1 (ix2 q k) := by
  refine (Ideal.matmul_constant_zero_apply dot_S512x4096_S2048x4096_S512x2048_1_1_0_0_n_n none x0 x1 (ix2 p q)).trans ?_
  rw [← Equiv.sum_comp (contrEquiv1 dot_S512x4096_S2048x4096_S512x2048_1_1_0_0_n_n 4096 rfl rfl).symm]
  refine Finset.sum_congr rfl fun k _ => ?_
  have hk := contrEquiv1_symm_val dot_S512x4096_S2048x4096_S512x2048_1_1_0_0_n_n 4096 rfl rfl k
  have el : dot_S512x4096_S2048x4096_S512x2048_1_1_0_0_n_n.lhsIdx (ix2 p q) ((contrEquiv1 dot_S512x4096_S2048x4096_S512x2048_1_1_0_0_n_n 4096 rfl rfl).symm k) = ix2 p k :=
    funext fun a => Fin.ext (by
      match a with
      | ⟨0, _⟩ => exact lhs_0 _ _
      | ⟨1, _⟩ => exact (lhs_1 _ _).trans hk)
  have er : dot_S512x4096_S2048x4096_S512x2048_1_1_0_0_n_n.rhsIdx (ix2 p q) ((contrEquiv1 dot_S512x4096_S2048x4096_S512x2048_1_1_0_0_n_n 4096 rfl rfl).symm k) = ix2 q k :=
    funext fun a => Fin.ext (by
      match a with
      | ⟨0, _⟩ => exact rhs_0 _ _
      | ⟨1, _⟩ => exact (rhs_1 _ _).trans hk)
  rw [el, er]

/-- The bias piece repeated down the rows reads `x2[0, q]` at `(p, q)`. -/
theorem bias_at (x2 : FVec Ideal S1x2048 .f32) (p : Fin 512) (q : Fin 2048) :
    broadcastTo S512x2048 x2 Facts₀.broadcasts_S1x2048_S512x2048 (ix2 p q) = x2 (ix2 (0 : Fin 1) q) :=
  broadcastTo_apply x2 _ (ix2 p q) (ix2 (0 : Fin 1) q) (fun a => by
    match a with
    | ⟨0, _⟩ => show (0 : Nat) = if (1 : Nat) = 1 then 0 else p.val; rw [if_pos rfl]
    | ⟨1, _⟩ => show q.val = if (2048 : Nat) = 1 then 0 else q.val; rw [if_neg (by decide)])

/-- THE STORED VALUE at `(p, q)`: `(∑ k, x0[p, k] · x1[q, k]) + x2[0, q]`. -/
theorem pay_at (x0 : FVec Ideal S512x4096 .bf16) (x1 : FVec Ideal S2048x4096 .bf16) (x2 : FVec Ideal S1x2048 .f32)
    (p : Fin 512) (q : Fin 2048) :
    k0_pay1 (F := Ideal) x0 x1 x2 (ix2 p q) = (∑ k : Fin 4096, x0 (ix2 p k) * x1 (ix2 q k)) + x2 (ix2 (0 : Fin 1) q) := by
  unfold k0_pay1
  simp only [shapeCast_self]
  show matmul (F := Ideal) dot_S512x4096_S2048x4096_S512x2048_1_1_0_0_n_n none x0 x1 (constant S512x2048 .f32 0x00000000#32) (ix2 p q)
      + broadcastTo S512x2048 x2 Facts₀.broadcasts_S1x2048_S512x2048 (ix2 p q) = _
  rw [matmul_at, bias_at]

end Cert.KernelIdeal.Body

end
-- ==== Proof.Blocks.lean ====
/-
  From one grid point's block to the whole [8192, 16384] matrix.

  The grid has 8 × 16 points. At a point whose output block is block `(R, C)` of the result (rows `512·R … 512·R + 511`,
  columns `2048·C … 2048·C + 2047`), the body is handed rows `512·R …` of the merged-row matrix (all 4096 columns),
  rows `2048·C …` of the weight matrix (all 4096 columns) and columns `2048·C …` of the bias row. These relations
  between the four block positions are decided once over the 128 points. An entry of a block sits in its array at
  block index × block size + its coordinate inside the block, on each axis.

  So what the point writes back at `(p, q)` of its block — `(∑ k, x0[p, k] · x1[q, k]) + x2[0, q]` — is entry
  `(512·R + p, 2048·C + q)` of ONE matrix, `Spec.flat` of the three arrays the region finds: every block is a
  restriction of the same whole-array function. The 128 output blocks tile the result (entry `(i, j)` lies in block
  `(i / 512, j / 2048)`, and every such block is some point's), so after the run the result array is that matrix.
-/
import proofs.«134720_j25958782337557_2_alg».proof.Proof.Gen.KernelIdeal.Frame
import proofs.«134720_j25958782337557_2_alg».proof.Proof.Body
import proofs.«134720_j25958782337557_2_alg».proof.Proof.Spec
import Idealize.ShloMosaic.Lib.Pipeline.Value

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The block positions at a point, decided over the grid: the merged rows move with the output's row block and
    take every column; the weight rows and the bias columns move with the output's column block; the output's
    block position stays inside the 16 × 8 box of blocks. -/
theorem block_positions : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every block of the 16 × 8 box is some point's output block. -/
theorem every_block : ∀ (R : Fin 16) (C : Fin 8), ∃ t : Fin cfg0.N, win0_3.index t = ![R.val, C.val] :=
  (by decide +kernel : ∀ (R : Fin 16) (C : Fin 8), ∃ t : Fin grid0.N, win0_3.index t = ![R.val, C.val])

/-- The merged-row block at a point: entry `(p, k)` is the matrix's entry `(512·R + p, k)`, `R` the output's row block. -/
theorem rows_block_at (c : Dev nD) (t : Fin cfg0.N) (p : Fin 512) (k : Fin 4096) (r : Fin 8192)
    (hr : r.val = win0_3.index t (0 : Fin 2) * 512 + p.val) :
    (iblk m c 0 t : Vec Ideal S512x4096 .bf16) (ix2 p k) = (V m c main_v1 : S8192x4096.Idx → EReal) (ix2 r k) := by
  obtain ⟨e0, e1, -⟩ := block_positions t
  unfold iblk
  rw [View.read_apply]
  show V m c main_v1 _ = V m c main_v1 _
  refine congrArg (V m c main_v1) (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- The weight block at a point: entry `(q, k)` is the weight matrix's entry `(2048·C + q, k)`, `C` the output's column block. -/
theorem weight_block_at (c : Dev nD) (t : Fin cfg0.N) (q : Fin 2048) (k : Fin 4096) (n : Fin 16384)
    (hn : n.val = win0_3.index t (1 : Fin 2) * 2048 + q.val) :
    (iblk m c 1 t : Vec Ideal S2048x4096 .bf16) (ix2 q k) = (V m c main_v2 : S16384x4096.Idx → EReal) (ix2 n k) := by
  obtain ⟨-, -, e2, e3, -⟩ := block_positions t
  unfold iblk
  rw [View.read_apply]
  show V m c main_v2 _ = V m c main_v2 _
  refine congrArg (V m c main_v2) (funext fun a => Fin.ext ?_)
  match a with
  | ⟨0, _⟩ => show win0_1.index t (0 : Fin 2) * 2048 + 1 * q.val = n.val; omega
  | ⟨1, _⟩ => show win0_1.index t (1 : Fin 2) * 4096 + 1 * k.val = k.val; omega

/-- The bias piece at a point: entry `(0, q)` is the bias row's entry `(0, 2048·C + q)`. -/
theorem bias_block_at (c : Dev nD) (t : Fin cfg0.N) (q : Fin 2048) (n : Fin 16384)
    (hn : n.val = win0_3.index t (1 : Fin 2) * 2048 + q.val) :
    (iblk m c 2 t : Vec Ideal S1x2048 .f32) (ix2 (0 : Fin 1) q) = (V m c main_v3 : S1x16384.Idx → EReal) (ix2 (0 : Fin 1) n) := by
  obtain ⟨-, -, -, -, e4, e5, -⟩ := block_positions t
  unfold iblk
  rw [View.read_apply]
  show V m c main_v3 _ = V m c main_v3 _
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 2048 + 1 * q.val = n.val; omega

/-- One block of the whole-array function, over variables: if three blocks hold the rows `512·R …` of `A`, the rows
    `2048·C …` of `W` and the columns `2048·C …` of the row `B`, the body's stored value at `y` is `Spec.flat A W B`
    at the index `i` that sits at `y` inside block `(R, C)`. -/
theorem stored_is_flat (A : S8192x4096.Idx → EReal) (W : S16384x4096.Idx → EReal) (B : S1x16384.Idx → EReal)
    (x0 : FVec Ideal S512x4096 .bf16) (x1 : FVec Ideal S2048x4096 .bf16) (x2 : FVec Ideal S1x2048 .f32) (R C : Nat)
    (h0 : ∀ (p : Fin 512) (k : Fin 4096) (r : Fin 8192), r.val = R * 512 + p.val → x0 (ix2 p k) = A (ix2 r k))
    (h1 : ∀ (q : Fin 2048) (k : Fin 4096) (n : Fin 16384), n.val = C * 2048 + q.val → x1 (ix2 q k) = W (ix2 n k))
    (h2 : ∀ (q : Fin 2048) (n : Fin 16384), n.val = C * 2048 + q.val → x2 (ix2 (0 : Fin 1) q) = B (ix2 (0 : Fin 1) n))
    (y : S512x2048.Idx) (i : S8192x16384.Idx) (hi0 : (i 0).val = R * 512 + (y 0).val) (hi1 : (i 1).val = C * 2048 + (y 1).val) :
    k0_pay1 (F := Ideal) x0 x1 x2 y = Cert.Spec.flat A W B i := by
  obtain ⟨p, q, rfl⟩ : ∃ (p : Fin 512) (q : Fin 2048), y = ix2 p q := ⟨y 0, y 1, eq_ix2 y⟩
  refine (Cert.KernelIdeal.Body.pay_at x0 x1 x2 p q).trans ?_
  show _ = Cert.Spec.flatAt A W B (i 0) (i 1)
  unfold Cert.Spec.flatAt
  rw [h2 q (i 1) hi1]
  exact congrArg (· + B (ix2 (0 : Fin 1) (i 1))) (Finset.sum_congr rfl fun k _ => by rw [h0 p k (i 0) hi0, h1 q k (i 1) hi1])

/-- WHAT POINT `t` WRITES BACK is block `t` of `Spec.flat` of the three arrays the region finds. -/
theorem flushed_eq (c : Dev nD) (t : Fin cfg0.N) :
    (dats m 0 c).flushed 3 t
      = ((cfg0.win 3).blk t).view.read (Elt Ideal) (Cert.Spec.flat (V m c main_v1) (V m c main_v2) (V m c main_v3)) := by
  show (cfg0.win 3).cut (grid0.coords t) ((dats m 0 c).after 3 t) = _
  rw [after0_3]
  unfold out0_3
  rw [View.canon_unit_zero zero_offsets]
  simp only [View.ld_unit_zero (S := S512x4096) zero_offsets, View.ld_unit_zero (S := S2048x4096) zero_offsets,
    View.ld_unit_zero (S := S1x2048) zero_offsets]
  funext j
  show k0_pay1 (F := Ideal) (iblk m c 0 t) (iblk m c 1 t) (iblk m c 2 t) j
    = Cert.Spec.flat (V m c main_v1) (V m c main_v2) (V m c main_v3) (((cfg0.win 3).blk t).view.emb j)
  refine stored_is_flat (V m c main_v1) (V m c main_v2) (V m c main_v3) (iblk m c 0 t) (iblk m c 1 t) (iblk m c 2 t)
    (win0_3.index t (0 : Fin 2)) (win0_3.index t (1 : Fin 2))
    (fun p k r hr => rows_block_at m c t p k r hr) (fun q k n hn => weight_block_at m c t q k n hn)
    (fun q n hn => bias_block_at m c t q n hn) j _ ?_ ?_
  · show win0_3.index t (0 : Fin 2) * 512 + 1 * (j 0).val = _; omega
  · show win0_3.index t (1 : Fin 2) * 2048 + 1 * (j 1).val = _; omega

/-- An index of the result is in point `t`'s block iff each coordinate is in the block's range on its axis. -/
theorem mem_blk (t : Fin cfg0.N) (i : S8192x16384.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v4).slice (win0_3.rect t)).set ↔ _
  rw [View.set_slice_whole, Rect.mem_set_unit]
  exact Iff.rfl

/-- The output blocks tile the result: entry `(i, j)` lies in the block `(i / 512, j / 2048)`, which some point writes back. -/
theorem cover (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  obtain ⟨t, ht⟩ := every_block ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE RESULT MATRIX after the run is `Spec.flat` of the three arrays the region finds. -/
theorem final (c : Dev nD) :
    (dats m 0 c).arrAt 3 cfg0.N = Cert.Spec.flat (V m c main_v1) (V m c main_v2) (V m c main_v3) :=
  (dats m 0 c).arrAt_eq_of_cover 3 _ (fun t _ => flushed_eq m c t) cover

end Cert.KernelIdeal.Blocks

end
-- ==== Proof.Host.lean ====
/-
  The three arrays the kernel's region finds, read at an index.

  Before the region the program merges the two leading axes of `x` (a reshape to [8192, 4096]), changes the float
  format of `x` and `w` (the identity on the extended reals), and views the bias as a [1, 16384] row (a reshape).
  A reshape keeps the row-major position of every entry, so:
    * row `r = 2·s + t`, column `k` of the merged matrix is `x[s, t, k]`  (position `(2·s + t)·4096 + k` on both sides);
    * the weight matrix is `w` entry by entry;
    * entry `(0, o)` of the bias row is `b[o]`  (position `o` on both sides).
-/
import proofs.«134720_j25958782337557_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The merged-row matrix as the region finds it: `x` reshaped, its format changed. -/
theorem V_v1 (c : Dev nD) :
    (V m c main_v1 : S8192x4096.Idx → EReal)
      = truncf (F := Ideal) .bf16 (shapeCast S8192x4096 (m ((c : Thread nD τ).loc main_arg0)) Facts₀.shapeCasts_S4096x2x4096_S8192x4096) Facts₀.bitsLt_bf16_f32 := by
  show StableHlo.after hostOps0 (fun b => m (c, b)) (Proc.devRef .tc main_v1) = _
  after_results
  rfl

/-- The weight matrix as the region finds it: `w`, its format changed. -/
theorem V_v2 (c : Dev nD) :
    (V m c main_v2 : S16384x4096.Idx → EReal)
      = truncf (F := Ideal) .bf16 (m ((c : Thread nD τ).loc main_arg1)) Facts₀.bitsLt_bf16_f32 := by
  show StableHlo.after hostOps0 (fun b => m (c, b)) (Proc.devRef .tc main_v2) = _
  after_results

/-- The bias row as the region finds it: `b` reshaped. -/
theorem V_v3 (c : Dev nD) :
    (V m c main_v3 : S1x16384.Idx → EReal)
      = shapeCast S1x16384 (m ((c : Thread nD τ).loc main_arg2)) Facts₀.shapeCasts_S16384_S1x16384 := by
  show StableHlo.after hostOps0 (fun b => m (c, b)) (Proc.devRef .tc main_v3) = _
  after_results
  rfl

/-- Row `2·s + t`, column `k` of the merged matrix is `x[s, t, k]`: the same row-major position. -/
theorem v1_at (c : Dev nD) (s : Fin 4096) (t : Fin 2) (r : Fin 8192) (k : Fin 4096) (hr : r.val = 2 * s.val + t.val) :
    (V m c main_v1 : S8192x4096.Idx → EReal) (ix2 r k)
      = (m ((c : Thread nD τ).loc main_arg0) : S4096x2x4096.Idx → EReal) (ix3 s t k) := by
  rw [V_v1]
  show shapeCast S8192x4096 (m ((c : Thread nD τ).loc main_arg0)) Facts₀.shapeCasts_S4096x2x4096_S8192x4096 (ix2 r k) = _
  refine shapeCast_apply _ _ (ix2 r k) (ix3 s t k) ?_
  rw [Shape.rowMajor_val_three, Shape.rowMajor_val_two]
  show (s.val * 2 + t.val) * 4096 + k.val = r.val * 4096 + k.val
  rw [hr]; ring

/-- The weight matrix is `w` entry by entry. -/
theorem v2_at (c : Dev nD) (o : Fin 16384) (k : Fin 4096) :
    (V m c main_v2 : S16384x4096.Idx → EReal) (ix2 o k)
      = (m ((c : Thread nD τ).loc main_arg1) : S16384x4096.Idx → EReal) (ix2 o k) := by
  rw [V_v2]
  rfl

/-- Entry `(0, o)` of the bias row is `b[o]`: the same row-major position. -/
theorem v3_at (c : Dev nD) (o : Fin 16384) :
    (V m c main_v3 : S1x16384.Idx → EReal) (ix2 (0 : Fin 1) o)
      = (m ((c : Thread nD τ).loc main_arg2) : S16384.Idx → EReal) (ix1 o) := by
  rw [V_v3]
  refine shapeCast_apply _ _ (ix2 (0 : Fin 1) o) (ix1 o) ?_
  rw [Shape.rowMajor_val_one, Shape.rowMajor_val_two]
  show o.val = 0 * 16384 + o.val
  omega

end Cert.KernelIdeal.Host

end
-- ==== Proof.KernelValue.lean ====
/-
  The kernel's result, as one function of its three arguments.

  After the region the program reshapes the [8192, 16384] result matrix to [4096, 2, 16384]. A reshape keeps row-major
  positions, so entry `(s, t, o)` of the final array is entry `(2·s + t, o)` of the matrix (position
  `(2·s + t)·16384 + o` on both sides). The matrix is `Spec.flat` of the arrays the region finds, and those are the
  arguments re-arranged (row `2·s + t` of the merged matrix is `x[s, t, ·]`, the weights are `w`, the bias row is `b`).
  Hence the final array is `Spec.linear x w b`: `(∑ k, x[s, t, k] · w[o, k]) + b[o]` at `(s, t, o)`.
-/
import proofs.«134720_j25958782337557_2_alg».proof.Proof.Blocks
import proofs.«134720_j25958782337557_2_alg».proof.Proof.Host
import proofs.«134720_j25958782337557_2_alg».proof.Proof.Spec

noncomputable section

namespace Cert.KernelIdeal.KernelValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The final array after the host line that follows the region: the result matrix, reshaped. -/
theorem tail_eq (c : Dev nD) :
    Pipeline.afterTail₀ cfgs (dats m) 0 (V0 m) [hostOps1] c main_v5
      = shapeCast S4096x2x16384 (Cert.Spec.flat (V m c main_v1) (V m c main_v2) (V m c main_v3))
          Facts₀.shapeCasts_S8192x16384_S4096x2x16384 := by
  unfold Pipeline.afterTail₀
  show StableHlo.after hostOps1 _ (Proc.devRef .tc main_v5) = _
  after_results
  -- the region's result array, among the buffers the tail reads, is the matrix the blocks make up
  have e : Pipeline.withArrays (cfgs 0).spec c (V0 m c) (fun w => (dats m 0 c).arrAt w (cfgs 0).N) (Proc.devRef .tc main_v4)
      = Cert.Spec.flat (V m c main_v1) (V m c main_v2) (V m c main_v3) :=
    (Pipeline.withArrays_arr spec0 launch0.win.arr_inj c _ _ 3).trans (Cert.KernelIdeal.Blocks.final m c)
  rw [e] <;> rfl

/-- The reshaped matrix is the layer's result: entry `(s, t, o)` is entry `(2·s + t, o)` of the matrix, which is
    `(∑ k, x[s, t, k] · w[o, k]) + b[o]`. -/
theorem reshaped_eq (c : Dev nD) :
    shapeCast S4096x2x16384 (Cert.Spec.flat (V m c main_v1) (V m c main_v2) (V m c main_v3))
        Facts₀.shapeCasts_S8192x16384_S4096x2x16384
      = Cert.Spec.linear (m ((c : Thread nD τ).loc main_arg0)) (m ((c : Thread nD τ).loc main_arg1))
          (m ((c : Thread nD τ).loc main_arg2)) := by
  funext i
  obtain ⟨s, t, o, rfl⟩ : ∃ (s : Fin 4096) (t : Fin 2) (o : Fin 16384), i = ix3 s t o := ⟨i 0, i 1, i 2, eq_ix3 i⟩
  have hs : s.val < 4096 := s.isLt
  have ht : t.val < 2 := t.isLt
  refine (shapeCast_apply _ _ (ix3 s t o) (ix2 (⟨2 * s.val + t.val, by omega⟩ : Fin 8192) o) ?_).trans ?_
  · rw [Shape.rowMajor_val_two, Shape.rowMajor_val_three]
    show (2 * s.val + t.val) * 16384 + o.val = (s.val * 2 + t.val) * 16384 + o.val
    ring
  · show Cert.Spec.flatAt _ _ _ (⟨2 * s.val + t.val, by omega⟩ : Fin 8192) o = Cert.Spec.linearAt _ _ _ s t o
    exact Cert.Spec.flatAt_eq_linearAt _ _ _ _ _ _ (fun s t r k hr => Cert.KernelIdeal.Host.v1_at m c s t r k hr)
      (fun o k => Cert.KernelIdeal.Host.v2_at m c o k) (fun o => Cert.KernelIdeal.Host.v3_at m c o) s t o _ rfl

/-- THE KERNEL'S RUN, read: every weakly fair execution terminates with the result array at the layer's function of
    the arguments, and the arguments unchanged. -/
theorem run : θ_run defs (onTc (τ := τ) (main (F := Ideal))) ⟨m, fun _ => 0, ρ⟩ fun r => ∀ c : Dev nD,
      r.2.mem ((c.tc : Thread nD τ).loc main_v5)
        = Cert.Spec.linear (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans
        ((tail_eq m c).trans (reshaped_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.lean ====
/-
  The kernel and its reference compute the same affine layer.

  Inputs: `x` of shape [4096, 2, 4096], a weight matrix `w` of shape [16384, 4096] and a bias `b` of length 16384.
  Both programs return the [4096, 2, 16384] array
      out[s, t, o] = (∑ k, x[s, t, k] · w[o, k]) + b[o],
  a sum over the 4096 input features, read on the extended reals (`Spec.linear`).

  The reference contracts the last axes of `x` and `w` and adds the bias spread over the two leading axes
  (`RefValue.ref_eq`). The kernel merges the two leading axes of `x` into 8192 rows, multiplies 512-row blocks by
  the transposes of 2048-row blocks of `w` over an 8 × 16 grid, adds the matching piece of the bias to every row
  of a block, and splits the 8192 rows back into [4096, 2]; the changes of float format on the way in are the
  identity on the extended reals. Each block the kernel writes is a restriction of one [8192, 16384] matrix, the
  blocks tile that matrix, and splitting its rows gives `Spec.linear` again (`KernelValue.run`). The two sides
  differ only in how the rows are arranged and the sum is tiled, so no property of the entries is needed: the
  precondition is not used by the value argument.

  The idealized kernel is the kernel's own text read on the extended reals (no rewrite was applied), so there is
  nothing to preserve. The three runs terminate without a fault and leave the arguments unchanged.
-/
import proofs.«134720_j25958782337557_2_alg».proof.Defs
import proofs.«134720_j25958782337557_2_alg».proof.Proof.Gen.Kernel
import proofs.«134720_j25958782337557_2_alg».proof.Proof.Gen.Kernel.Skeleton
import proofs.«134720_j25958782337557_2_alg».proof.Proof.Gen.Kernel.Launch
import proofs.«134720_j25958782337557_2_alg».proof.Proof.Gen.Kernel.Points
import proofs.«134720_j25958782337557_2_alg».proof.Proof.Gen.Kernel.Frame
import proofs.«134720_j25958782337557_2_alg».proof.Proof.Gen.KernelIdeal
import proofs.«134720_j25958782337557_2_alg».proof.Proof.Gen.KernelIdeal.Skeleton
import proofs.«134720_j25958782337557_2_alg».proof.Proof.Gen.KernelIdeal.Launch
import proofs.«134720_j25958782337557_2_alg».proof.Proof.Gen.KernelIdeal.Points
import proofs.«134720_j25958782337557_2_alg».proof.Proof.Gen.KernelIdeal.Frame
import proofs.«134720_j25958782337557_2_alg».proof.Proof.Gen.ReferenceIdeal
import proofs.«134720_j25958782337557_2_alg».proof.Proof.Gen.ReferenceIdeal.Run
import proofs.«134720_j25958782337557_2_alg».proof.Proof.Gen.ReferenceIdeal.Read
import proofs.«134720_j25958782337557_2_alg».proof.Proof.Gen.Pre_finite_inputs
import proofs.«134720_j25958782337557_2_alg».proof.Proof.RefValue
import proofs.«134720_j25958782337557_2_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten: there is nothing to preserve. -/
theorem preserves : Cert.preserves_Kernel_KernelIdeal := trivial

/-- From memories that agree on `x`, `w` and `b`, both programs end with their result array at `Spec.linear x w b`:
    the kernel by its blocks (`KernelValue.run`), the reference by reading its four operations at an index
    (`RefValue.ref_eq`). -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
